-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S500000x6 : Shape := ⟨2, ![500000, 6]⟩
abbrev S500000 : Shape := ⟨1, ![500000]⟩
abbrev S95x128 : Shape := ⟨2, ![95, 128]⟩
abbrev S128x6 : Shape := ⟨2, ![128, 6]⟩
abbrev S128 : Shape := ⟨1, ![128]⟩
abbrev S128x384 : Shape := ⟨2, ![128, 384]⟩
abbrev S_ : Shape := ⟨0, ![]⟩

class Facts : Prop where
  bcast_S_S500000x6 : S_.BroadcastsInDim S500000x6 (![] : Fin 0 → Fin S500000x6.rank)
  reducesTo_S500000x6_S_d0_1 : S500000x6.ReducesTo [0, 1] S_
  h_S_ : 0 < S_.numel
  bcast_S_S95x128 : S_.BroadcastsInDim S95x128 (![] : Fin 0 → Fin S95x128.rank)
  reducesTo_S95x128_S_d0_1 : S95x128.ReducesTo [0, 1] S_
  bcast_S_S128x6 : S_.BroadcastsInDim S128x6 (![] : Fin 0 → Fin S128x6.rank)
  reducesTo_S128x6_S_d0_1 : S128x6.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_

variable [Facts]

def fn_part1 {F : FTy → Type} [FloatOps F] (main_arg7 : FVec F S128x384 .f32) (main_arg8 : FVec F S128 .f32) (main_arg9 : FVec F S128x6 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg7
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x6 .f32 := Host.absf main_arg9
  let main_cst_10 : FVec F S_ .f32 := constant S_ .f32 0x7F800000#32
  let main_v30 : FVec F S128x6 .f32 := broadcastInDim S128x6 ![] bcast_S_S128x6 main_cst_10
  let main_v31 : IVec S128x6 1 := cmpf .olt main_v29 main_v30
  let main_c_11 : IVec S_ 1 := constantI S_ 1 1#1
  let main_v32 : IVec S_ 1 := (fun x v => Host.reduce IntOp.andi x v reducesTo_S128x6_S_d0_1 h_S_) main_v31 main_c_11
  let main_v33 : IVec S_ 1 := andi main_v28 main_v32
  main_v33

def fn {F : FTy → Type} [FloatOps F] (main_arg0 : IVec S50000 32) (main_arg1 : FVec F S500000x6 .f32) (main_arg2 : IVec S500000 32) (main_arg3 : IVec S500000 32) (main_arg4 : FVec F S95x128 .f32) (main_arg5 : FVec F S128x6 .f32) (main_arg6 : FVec F S128 .f32) (main_arg7 : FVec F S128x384 .f32) (main_arg8 : FVec F S128 .f32) (main_arg9 : FVec F S128x6 .f32) : IVec S_ 1 :=
  let main_v0 : FVec F S500000x6 .f32 := Host.absf main_arg1
  let main_cst : FVec F S_ .f32 := constant S_ .f32 0x7F800000#32
  let main_v1 : FVec F S500000x6 .f32 := broadcastInDim S500000x6 ![] bcast_S_S500000x6 main_cst
  let main_v2 : IVec S500000x6 1 := cmpf .olt main_v0 main_v1
  let main_c : IVec S_ 1 := constantI S_ 1 1#1
  let main_v3 : IVec S_ 1 := (fun x v => Host.reduce IntOp.andi x v reducesTo_S500000x6_S_d0_1 h_S_) main_v2 main_c
  let main_v4 : FVec F S95x128 .f32 := Host.absf main_arg4
  let main_cst_0 : FVec F S_ .f32 := constant S_ .f32 0x7F800000#32
  let main_v5 : FVec F S95x128 .f32 := broadcastInDim S95x128 ![] bcast_S_S95x128 main_cst_0
  let main_v6 : IVec S95x128 1 := cmpf .olt main_v4 main_v5
  let main_c_1 : IVec S_ 1 := constantI S_ 1 1#1
  let main_v7 : IVec S_ 1 := (fun x v => Host.reduce IntOp.andi x v reducesTo_S95x128_S_d0_1 h_S_) main_v6 main_c_1
  let main_v8 : IVec S_ 1 := andi main_v3 main_v7
  let main_v9 : FVec F S128x6 .f32 := Host.absf main_arg5
  let main_cst_2 : FVec F S_ .f32 := constant S_ .f32 0x7F800000#32
  let main_v10 : FVec F S128x6 .f32 := broadcastInDim S128x6 ![] bcast_S_S128x6 main_cst_2
  let main_v11 : IVec S128x6 1 := cmpf .olt main_v9 main_v10
  let main_c_3 : IVec S_ 1 := constantI S_ 1 1#1
  let main_v12 : IVec S_ 1 := (fun x v => Host.reduce IntOp.andi x v reducesTo_S128x6_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_v13 main_v16
-- ==== Kernel.lean ====
abbrev S50000 : Shape := ⟨1, ![50000]⟩
abbrev S500000x6 : Shape := ⟨2, ![500000, 6]⟩
abbrev S500000 : Shape := ⟨1, ![500000]⟩
abbrev S95x128 : Shape := ⟨2, ![95, 128]⟩
abbrev S128x6 : Shape := ⟨2, ![128, 6]⟩
abbrev S128 : Shape := ⟨1, ![128]⟩
abbrev S128x384 : Shape := ⟨2, ![128, 384]⟩
abbrev S_ : Shape := ⟨0, ![]⟩
abbrev S50000x1 : Shape := ⟨2, ![50000, 1]⟩
abbrev S50000x128 : Shape := ⟨2, ![50000, 128]⟩
abbrev S500000x1 : Shape := ⟨2, ![500000, 1]⟩
abbrev S500000x128 : Shape := ⟨2, ![500000, 128]⟩
abbrev S6x128 : Shape := ⟨2, ![6, 128]⟩
abbrev S384x128 : Shape := ⟨2, ![384, 128]⟩
abbrev S1x128 : Shape := ⟨2, ![1, 128]⟩
abbrev S4000x128 : Shape := ⟨2, ![4000, 128]⟩
abbrev S4000x6 : Shape := ⟨2, ![4000, 6]⟩
abbrev S4000x384 : Shape := ⟨2, ![4000, 384]⟩

abbrev nBuf : Space → Nat
  | .hbm => 44
  | .vmem => 15
  | .smem => 0
  | _ => 0

abbrev bufTy : (tb : Table) → Fin (tcTables nBuf tb) → BufTy
  | .hbm, ⟨0, _⟩ => ⟨S50000, .i32⟩
  | .hbm, ⟨1, _⟩ => ⟨S500000x6, .f32⟩
  | .hbm, ⟨2, _⟩ => ⟨S500000, .i32⟩
  | .hbm, ⟨3, _⟩ => ⟨S500000, .i32⟩
  | .hbm, ⟨4, _⟩ => ⟨S95x128, .f32⟩
  | .hbm, ⟨5, _⟩ => ⟨S128x6, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S128x6, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S6x128, .f32⟩
  | .hbm, ⟨38, _⟩ => ⟨S384x128, .f32⟩
  | .hbm, ⟨39, _⟩ => ⟨S6x128, .f32⟩
  | .hbm, ⟨40, _⟩ => ⟨S1x128, .f32⟩
  | .hbm, ⟨41, _⟩ => ⟨S1x128, .f32⟩
  | .hbm, ⟨42, _⟩ => ⟨S500000x128, .f32⟩
  | .hbm, ⟨43, _⟩ => ⟨S500000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x6, .f32⟩
  | .local _ .vmem, ⟨5, _⟩ => ⟨S4000x6, .f32⟩
  | .local _ .vmem, ⟨6, _⟩ => ⟨S6x128, .f32⟩
  | .local _ .vmem, ⟨7, _⟩ => ⟨S1x128, .f32⟩
  | .local _ .vmem, ⟨8, _⟩ => ⟨S384x128, .f32⟩
  | .local _ .vmem, ⟨9, _⟩ => ⟨S1x128, .f32⟩
  | .local _ .vmem, ⟨10, _⟩ => ⟨S6x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S500000 : S_.BroadcastsInDim S500000 (![] : Fin 0 → Fin S500000.rank)
  bcast_S500000_S500000x1_0 : S500000.BroadcastsInDim S500000x1 (![0] : Fin 1 → Fin S500000x1.rank)
  transposes_S128x6_S6x128_1_0 : S128x6.Transposes [1, 0] S6x128
  transposes_S128x384_S384x128_1_0 : S128x384.Transposes [1, 0] S384x128
  shapeCasts_S128_S1x128 : S128.ShapeCasts S1x128
  inb_S4000x6_S4000x6_0_0 : ∀ a, (![0, 0] : Fin 2 → Nat) a + S4000x6.size a ≤ S4000x6.size a
  h_S4000x6 : 0 < S4000x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x128_S4000x384_d1 : Shape.Concatenates [S4000x128, S4000x128, S4000x128] S4000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  gather_S95x128_S50000x1_S50000x128_1_0_n_n_0_1_1128_wf : GatherDims.WF S95x128 S50000x1 S50000x128 [1] [0] [] [0] [] 1 ![1, 128]
  gather_S50000x128_S500000x1_S500000x128_1_0_n_n_0_1_1128_wf : GatherDims.WF S50000x128 S500000x1 S500000x128 [1] [0] [] [0] [] 1 ![1, 128]
  dot_S4000x6_S6x128_S4000x128_1_0_0_1_n_n_wf : DotDims.WF S4000x6 S6x128 S4000x128 [1] [0] [0] [1] [] []
  dot_S4000x384_S384x128_S4000x128_1_0_0_1_n_n_wf : DotDims.WF S4000x384 S384x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x6.size a ≤ S500000x6.size a
  hwx0_2 : ∀ i : grid0.Coords, EltTy.bits .f32 = 32 ∨ (Rect.block (s := S500000x6) S4000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x128.size a ≤ S6x128.size a
  hwx0_3 : ∀ i : grid0.Coords, EltTy.bits .f32 = 32 ∨ (Rect.block (s := S6x128) S6x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x128.size a ≤ S6x128.size a
  hwx0_7 : ∀ i : grid0.Coords, EltTy.bits .f32 = 32 ∨ (Rect.block (s := S6x128) S6x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S500000x128.size a
  hwx0_8 : ∀ i : grid0.Coords, EltTy.bits .f32 = 32 ∨ (Rect.block (s := S500000x128) S4000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S500000x128.size a
  hwx0_9 : ∀ i : grid0.Coords, EltTy.bits .f32 = 32 ∨ (Rect.block (s := S500000x128) S4000x128.size (cc0_transform_9 i) (hinb0_9 i)).WholeWords (EltTy.packing .f32)

variable [Facts₀]

def gather_S95x128_S50000x1_S50000x128_1_0_n_n_0_1_1128 : GatherDims S95x128 S50000x1 S50000x128 where
  offsetDims := [1]
  collapsedSliceDims := [0]
  operandBatchingDims := []
  startIndicesBatchingDims := []
  startIndexMap := [0]
  indexVectorDim := 1
  sliceSizes := ![1, 128]
  wf := gather_S95x128_S50000x1_S50000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x6_S6x128_S4000x128_1_0_0_1_n_n : DotDims S4000x6 S6x128 S4000x128 where
  lhsContracting := [1]
  rhsContracting := [0]
  lhsNonContracting := [0]
  rhsNonContracting := [1]
  lhsBatch := []
  rhsBatch := []
  wf := dot_S4000x6_S6x128_S4000x128_1_0_0_1_n_n_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S6x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S6x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26_0) S4000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v26_1) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000 : Shape := ⟨1, ![50000]⟩
abbrev S500000x6 : Shape := ⟨2, ![500000, 6]⟩
abbrev S500000 : Shape := ⟨1, ![500000]⟩
abbrev S95x128 : Shape := ⟨2, ![95, 128]⟩
abbrev S128x6 : Shape := ⟨2, ![128, 6]⟩
abbrev S128 : Shape := ⟨1, ![128]⟩
abbrev S128x384 : Shape := ⟨2, ![128, 384]⟩
abbrev S_ : Shape := ⟨0, ![]⟩
abbrev S50000x1 : Shape := ⟨2, ![50000, 1]⟩
abbrev S50000x128 : Shape := ⟨2, ![50000, 128]⟩
abbrev S500000x128 : Shape := ⟨2, ![500000, 128]⟩
abbrev S1x128 : Shape := ⟨2, ![1, 128]⟩
abbrev S500000x1 : Shape := ⟨2, ![500000, 1]⟩
abbrev S500000x384 : Shape := ⟨2, ![500000, 384]⟩

abbrev nBuf : Space → Nat
  | .hbm => 66
  | .vmem => 0
  | .smem => 0
  | _ => 0

abbrev bufTy : (tb : Table) → Fin (tcTables nBuf tb) → BufTy
  | .hbm, ⟨0, _⟩ => ⟨S50000, .i32⟩
  | .hbm, ⟨1, _⟩ => ⟨S500000x6, .f32⟩
  | .hbm, ⟨2, _⟩ => ⟨S500000, .i32⟩
  | .hbm, ⟨3, _⟩ => ⟨S500000, .i32⟩
  | .hbm, ⟨4, _⟩ => ⟨S95x128, .f32⟩
  | .hbm, ⟨5, _⟩ => ⟨S128x6, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S128x6, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x128, .f32⟩
  | .hbm, ⟨19, _⟩ => ⟨S500000x128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S500000x128, .f32⟩
  | .hbm, ⟨24, _⟩ => ⟨S500000x128, .f32⟩
  | .hbm, ⟨25, _⟩ => ⟨S_, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x384, .f32⟩
  | .hbm, ⟨51, _⟩ => ⟨S500000x128, .f32⟩
  | .hbm, ⟨52, _⟩ => ⟨S1x128, .f32⟩
  | .hbm, ⟨53, _⟩ => ⟨S500000x128, .f32⟩
  | .hbm, ⟨54, _⟩ => ⟨S500000x128, .f32⟩
  | .hbm, ⟨55, _⟩ => ⟨S500000x128, .f32⟩
  | .hbm, ⟨56, _⟩ => ⟨S500000x128, .f32⟩
  | .hbm, ⟨57, _⟩ => ⟨S_, .f32⟩
  | .hbm, ⟨58, _⟩ => ⟨S500000x128, .f32⟩
  | .hbm, ⟨59, _⟩ => ⟨S500000x128, .f32⟩
  | .hbm, ⟨60, _⟩ => ⟨S_, .f32⟩
  | .hbm, ⟨61, _⟩ => ⟨S500000x128, .f32⟩
  | .hbm, ⟨62, _⟩ => ⟨S500000x128, .f32⟩
  | .hbm, ⟨63, _⟩ => ⟨S500000x128, .f32⟩
  | .hbm, ⟨64, _⟩ => ⟨S500000x128, .f32⟩
  | .hbm, ⟨65, _⟩ => ⟨S500000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  gather_S95x128_S50000x1_S50000x128_1_0_n_n_0_1_1128_wf : GatherDims.WF S95x128 S50000x1 S50000x128 [1] [0] [] [0] [] 1 ![1, 128]
  dot_S500000x6_S128x6_S500000x128_1_1_0_0_n_n_wf : DotDims.WF S500000x6 S128x6 S500000x128 [1] [1] [0] [0] [] []
  gather_S50000x128_S500000x1_S500000x128_1_0_n_n_0_1_1128_wf : GatherDims.WF S50000x128 S500000x1 S500000x128 [1] [0] [] [0] [] 1 ![1, 128]
  dot_S500000x384_S128x384_S500000x128_1_1_0_0_n_n_wf : DotDims.WF S500000x384 S128x384 S500000x128 [1] [1] [0] [0] [] []

variable [Facts₀]

def gather_S95x128_S50000x1_S50000x128_1_0_n_n_0_1_1128 : GatherDims S95x128 S50000x1 S50000x128 where
  offsetDims := [1]
  collapsedSliceDims := [0]
  operandBatchingDims := []
  startIndicesBatchingDims := []
  startIndexMap := [0]
  indexVectorDim := 1
  sliceSizes := ![1, 128]
  wf := gather_S95x128_S50000x1_S50000x128_1_0_n_n_0_1_1128_wf
def dot_S500000x6_S128x6_S500000x128_1_1_0_0_n_n : DotDims S500000x6 S128x6 S500000x128 where
  lhsContracting := [1]
  rhsContracting := [1]
  lhsNonContracting := [0]
  rhsNonContracting := [0]
  lhsBatch := []
  rhsBatch := []
  wf := dot_S500000x6_S128x6_S500000x128_1_1_0_0_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S128x384_S500000x128_1_1_0_0_n_n : DotDims S500000x384 S128x384 S500000x128 where
  lhsContracting := [1]
  rhsContracting := [1]
  lhsNonContracting := [0]
  rhsNonContracting := [0]
  lhsBatch := []
  rhsBatch := []
  wf := dot_S500000x384_S128x384_S500000x128_1_1_0_0_n_n_wf

class Facts : Prop extends Facts₀ where

variable [Facts]
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowJoin3.lean ====
/-
  Three row-aligned arrays joined along their columns, read at an entry.

  Three arrays of shape [a, n] concatenated along axis 1 give an [a, N] array with N = n + n + n.  Row p of the
  result is the three rows p laid end to end: column k holds the first array's entry (p, k) for k < n, the second's
  entry (p, k - n) for n ≤ k < 2n, and the third's entry (p, k - 2n) beyond.  `join3` is that row as a function of the
  three rows; the row count a is a variable, so the reading is the same for one tile of rows and for the whole array.
-/
import Idealize.ShloMosaic.Lib.ValueIdx
import Idealize.ShloMosaic.Lib.Pipeline.Value

noncomputable section

namespace Cert.RowJoin3

open Idealize.ShloMosaic Idealize.ShloMosaic.ValueIdx

variable {α : Type}

/-- Three rows of length n laid end to end, as one row of length N = n + n + n. -/
def join3 {n : ℕ} (x y z : Fin n → α) (N : ℕ) (hN : N = n + n + n) (k : Fin N) : α :=
  if h1 : k.val < n then x ⟨k.val, h1⟩
  else if h2 : k.val < n + n then y ⟨k.val - n, by omega⟩
  else z ⟨k.val - (n + n), by have := k.isLt; omega⟩

/-- Two joined rows agree when their three parts agree. -/
theorem join3_congr {n : ℕ} {x y z x' y' z' : Fin n → α} (N : ℕ) (hN : N = n + n + n)
    (hx : ∀ d, x d = x' d) (hy : ∀ d, y d = y' d) (hz : ∀ d, z d = z' d) (k : Fin N) :
    join3 x y z N hN k = join3 x' y' z' N hN k := by
  unfold join3
  split
  · exact hx _
  · split
    · exact hy _
    · exact hz _

/-- The concatenation of three [a, n] arrays along axis 1, read at (p, k), is the joined row p at k. -/
theorem concatenate_apply {a n N : ℕ} (hN : N = n + n + n)
    (A B C : (⟨2, ![a, n]⟩ : Shape).Idx → α)
    (h : Shape.Concatenates (([⟨⟨2, ![a, n]⟩, A⟩, ⟨⟨2, ![a, n]⟩, B⟩, ⟨⟨2, ![a, n]⟩, C⟩] :
      List ((s : Shape) × (s.Idx → α))).map (·.1)) ⟨2, ![a, N]⟩ 1)
    (p : Fin a) (k : Fin N) :
    concatenate ⟨2, ![a, N]⟩ 1 [⟨⟨2, ![a, n]⟩, A⟩, ⟨⟨2, ![a, n]⟩, B⟩, ⟨⟨2, ![a, n]⟩, C⟩] h (ix2 p k)
      = join3 (fun d => A (ix2 p d)) (fun d => B (ix2 p d)) (fun d => C (ix2 p d)) N hN k := by
  unfold join3
  have hoff : ∀ (d : Fin n) (b : Fin (⟨2, ![a, n]⟩ : Shape).rank), b.cast (rfl : (2 : ℕ) = 2) ≠ (1 : Fin 2) →
      ((ix2 p d : (⟨2, ![a, n]⟩ : Shape).Idx) b).val = ((ix2 p k : (⟨2, ![a, N]⟩ : Shape).Idx) (b.cast rfl)).val := by
    intro d b hb
    match b with
    | ⟨0, _⟩ => rfl
    | ⟨1, _⟩ => exact absurd rfl hb
  split
  · next h1 =>
    exact concatenate_apply_piece (1 : Fin 2) _ h (ix2 p k) 0 (by show (0 : ℕ) < 3; omega) ⟨2, ![a, n]⟩ A rfl rfl 0 rfl
      (ix2 p ⟨k.val, h1⟩) (hoff _) (by show 0 + k.val = k.val; omega)
  · next h1 =>
    split
    · next h2 =>
      exact concatenate_apply_piece (1 : Fin 2) _ h (ix2 p k) 1 (by show (1 : ℕ) < 3; omega) ⟨2, ![a, n]⟩ B rfl rfl n (by simp)
        (ix2 p ⟨k.val - n, by omega⟩) (hoff _) (by show n + (k.val - n) = k.val; omega)
    · next h2 =>
      exact concatenate_apply_piece (1 : Fin 2) _ h (ix2 p k) 2 (by show (2 : ℕ) < 3; omega) ⟨2, ![a, n]⟩ C rfl rfl (n + n) (by simp)
        (ix2 p ⟨k.val - (n + n), by have := k.isLt; omega⟩) (hoff _) (by show n + n + (k.val - (n + n)) = k.val; omega)

end Cert.RowJoin3

end
-- ==== Proof.EdgeSpec.lean ====
/-
  The edge update, entry by entry, on the extended reals.

  For one edge e and one output channel h the kernel and the reference both compute

      gate(e, d) = swish( Σ_{k<6} rbf(e, k) · W0(d, k) + b0(d) )                       (d < 128)
      e1(e, h)   = swish( Σ_{k<384} cat(e, k) · Wl(h, k) + bl(h) ),   cat(e, ·) = hi(e, ·) ++ hj(e, ·) ++ gate(e, ·)
      e2(e, h)   = ( Σ_{k<6} rbf(e, k) · W1(h, k) ) · e1(e, h)

  with swish(v) = v · logistic(v) and logistic(v) = 1 / (1 + exp(-v)).  Here they are written as functions of ROWS — the
  edge's two gathered embedding rows, its radial row, the rows of the weight matrices — so that one tile of edges and the
  whole edge array read the same term.  No law of arithmetic is needed between the two sides: the sums run over the same
  index in the same order.  The one step is that the quotient 1 / (1 + exp(-v)) spelt with the float literal 1.0 is the
  logistic function.
-/
import Idealize.ShloMosaic.PureOps.Ideal.Laws
import Idealize.ShloMosaic.Lib.ValueIdx
import proofs.«101394_j50448685859053_1_alg».proof.Proof.LibRowJoin3

noncomputable section

open scoped BigOperators

namespace Cert.EdgeSpec

open Idealize.ShloMosaic Idealize.ShloMosaic.ValueIdx Cert.RowJoin3

/-- swish(v) = v · logistic(v). -/
def swish (v : EReal) : EReal := v * Ideal.logistic v

/-- The dot product of two rows of length n. -/
def dot {n : ℕ} (r w : Fin n → EReal) : EReal := ∑ k : Fin n, r k * w k

/-- One channel of the radial gate: swish of the radial row against one row of W0, plus the bias. -/
def gate (r w0 : Fin 6 → EReal) (b0 : EReal) : EReal := swish (dot r w0 + b0)

/-- The joined row of an edge: its two embedding rows, then its 128 gate channels. -/
def catRow (hi hj : Fin 128 → EReal) (r : Fin 6 → EReal) (W0 : Fin 128 → Fin 6 → EReal) (b0 : Fin 128 → EReal) :
    Fin 384 → EReal :=
  join3 hi hj (fun d => gate r (W0 d) (b0 d)) 384 rfl

/-- The first result at one entry: swish of the joined row against one row of Wl, plus the bias. -/
def e1 (hi hj : Fin 128 → EReal) (r : Fin 6 → EReal) (W0 : Fin 128 → Fin 6 → EReal) (b0 : Fin 128 → EReal)
    (wl : Fin 384 → EReal) (bl : EReal) : EReal :=
  swish (dot (catRow hi hj r W0 b0) wl + bl)

/-- The second result at one entry: the radial row against one row of W1, times the first result. -/
def e2 (hi hj : Fin 128 → EReal) (r : Fin 6 → EReal) (W0 : Fin 128 → Fin 6 → EReal) (b0 : Fin 128 → EReal)
    (wl : Fin 384 → EReal) (bl : EReal) (w1 : Fin 6 → EReal) : EReal :=
  dot r w1 * e1 hi hj r W0 b0 wl bl

/-- The float literal 1.0 denotes the real number one. -/
theorem one_f32 : Ideal.ofBits .f32 0x3F800000#32 = 1 := by
  simp [Ideal.ofBits, Ideal.ieee, -EReal.coe_mul]; norm_num

/-- v · (1.0 / (1.0 + exp(-v))) is swish(v). -/
theorem swish_quotient (v : EReal) :
    v * Ideal.div (Ideal.ofBits .f32 0x3F800000#32) (Ideal.ofBits .f32 0x3F800000#32 + Ideal.exp (-v)) = swish v := by
  rw [one_f32]; rfl

/-- `e1` depends on its rows entry by entry. -/
theorem e1_congr {hi hj hi' hj' : Fin 128 → EReal} {r r' : Fin 6 → EReal} {W0 W0' : Fin 128 → Fin 6 → EReal}
    {b0 b0' : Fin 128 → EReal} {wl wl' : Fin 384 → EReal} {bl bl' : EReal}
    (h0 : ∀ d, hi d = hi' d) (h1 : ∀ d, hj d = hj' d) (h2 : ∀ k, r k = r' k) (h3 : ∀ d k, W0 d k = W0' d k)
    (h4 : ∀ d, b0 d = b0' d) (h5 : ∀ k, wl k = wl' k) (h6 : bl = bl') :
    e1 hi hj r W0 b0 wl bl = e1 hi' hj' r' W0' b0' wl' bl' := by
  obtain rfl : hi = hi' := funext h0
  obtain rfl : hj = hj' := funext h1
  obtain rfl : r = r' := funext h2
  obtain rfl : W0 = W0' := funext fun d => funext (h3 d)
  obtain rfl : b0 = b0' := funext h4
  obtain rfl : wl = wl' := funext h5
  obtain rfl := h6
  rfl

/-- `e2` depends on its rows entry by entry. -/
theorem e2_congr {hi hj hi' hj' : Fin 128 → EReal} {r r' : Fin 6 → EReal} {W0 W0' : Fin 128 → Fin 6 → EReal}
    {b0 b0' : Fin 128 → EReal} {wl wl' : Fin 384 → EReal} {bl bl' : EReal} {w1 w1' : Fin 6 → EReal}
    (h0 : ∀ d, hi d = hi' d) (h1 : ∀ d, hj d = hj' d) (h2 : ∀ k, r k = r' k) (h3 : ∀ d k, W0 d k = W0' d k)
    (h4 : ∀ d, b0 d = b0' d) (h5 : ∀ k, wl k = wl' k) (h6 : bl = bl') (h7 : ∀ k, w1 k = w1' k) :
    e2 hi hj r W0 b0 wl bl w1 = e2 hi' hj' r' W0' b0' wl' bl' w1' := by
  obtain rfl : w1 = w1' := funext h7
  unfold e2
  rw [e1_congr h0 h1 h2 h3 h4 h5 h6, show r = r' from funext h2]

/-! ## The two results as whole arrays

For edge arrays of 500000 rows: `HI`, `HJ` the gathered embedding rows [500000, 128], `RBF` the radial rows
[500000, 6], and the weights as given — W0, W1 : [128, 6], Wl : [128, 384], the biases [128]. -/

/-- The row coordinate of a two-axis index. -/
abbrev row {a b : ℕ} (i : (⟨2, ![a, b]⟩ : Shape).Idx) : Fin a := ⟨(i 0).val, idx2_lt0 i⟩
/-- The column coordinate of a two-axis index. -/
abbrev col {a b : ℕ} (i : (⟨2, ![a, b]⟩ : Shape).Idx) : Fin b := ⟨(i 1).val, idx2_lt1 i⟩

/-- The first result array: entry (e, h) is `e1` of edge e's rows and channel h's weight row. -/
def E1 (HI HJ : (⟨2, ![500000, 128]⟩ : Shape).Idx → EReal) (RBF : (⟨2, ![500000, 6]⟩ : Shape).Idx → EReal)
    (W0 : (⟨2, ![128, 6]⟩ : Shape).Idx → EReal) (B0 : (⟨1, ![128]⟩ : Shape).Idx → EReal)
    (WL : (⟨2, ![128, 384]⟩ : Shape).Idx → EReal) (BL : (⟨1, ![128]⟩ : Shape).Idx → EReal) :
    (⟨2, ![500000, 128]⟩ : Shape).Idx → EReal := fun i =>
  e1 (fun d => HI (ix2 (row i) d)) (fun d => HJ (ix2 (row i) d)) (fun k => RBF (ix2 (row i) k))
    (fun d k => W0 (ix2 d k)) (fun d => B0 (ix1 d)) (fun k => WL (ix2 (col i) k)) (BL (ix1 (col i)))

/-- The second result array: entry (e, h) is `e2`, with channel h's row of W1. -/
def E2 (HI HJ : (⟨2, ![500000, 128]⟩ : Shape).Idx → EReal) (RBF : (⟨2, ![500000, 6]⟩ : Shape).Idx → EReal)
    (W0 : (⟨2, ![128, 6]⟩ : Shape).Idx → EReal) (B0 : (⟨1, ![128]⟩ : Shape).Idx → EReal)
    (WL : (⟨2, ![128, 384]⟩ : Shape).Idx → EReal) (BL : (⟨1, ![128]⟩ : Shape).Idx → EReal)
    (W1 : (⟨2, ![128, 6]⟩ : Shape).Idx → EReal) :
    (⟨2, ![500000, 128]⟩ : Shape).Idx → EReal := fun i =>
  e2 (fun d => HI (ix2 (row i) d)) (fun d => HJ (ix2 (row i) d)) (fun k => RBF (ix2 (row i) k))
    (fun d k => W0 (ix2 d k)) (fun d => B0 (ix1 d)) (fun k => WL (ix2 (col i) k)) (BL (ix1 (col i)))
    (fun k => W1 (ix2 (col i) k))

end Cert.EdgeSpec

end
-- ==== Proof.TileValue.lean ====
/-
  What one grid step stores, entry by entry.

  At a grid step the kernel body holds a tile of 4000 edges: their two gathered embedding tiles [4000, 128], their
  radial tile [4000, 6], and the whole transposed weights W0ᵀ [6, 128], Wlᵀ [384, 128], W1ᵀ [6, 128] and bias rows
  [1, 128].  Each dense layer is a plain matrix product onto the zero array plus a bias row repeated down the tile, so
  at (p, q) it is the dot product of row p of the left factor with column q of the right factor, plus the bias entry q.
  A change of float format is the identity on the extended reals, and the three-way concatenation reads as the joined row.
  Hence the two stored tiles are, at (p, q), the edge update `e1` / `e2` of the tile's rows p and the weights' columns q.
-/
import proofs.«101394_j50448685859053_1_alg».proof.Proof.Gen.KernelIdeal.Skeleton
import proofs.«101394_j50448685859053_1_alg».proof.Proof.LibPlainMatmul
import proofs.«101394_j50448685859053_1_alg».proof.Proof.EdgeSpec
import Idealize.ShloMosaic.Lib.ValueLayout
import Idealize.ShloMosaic.Lib.Pipeline.Value

noncomputable section

open scoped BigOperators

namespace Cert.KernelIdeal.TileValue

open Cert.KernelIdeal Cert.KernelIdeal.Gen Idealize.ShloMosaic Idealize.ShloMosaic.ValueIdx Cert.EdgeSpec Cert.RowJoin3

/-- A dense layer over a tile: a plain product onto the zero array plus a bias row repeated down the rows, at (p, q), is
    row p of the left factor against column q of the right factor, plus the bias entry q. -/
theorem dense_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (bias : FVec Ideal ⟨2, ![1, b]⟩ .f32) (hb : (⟨2, ![1, b]⟩ : Shape).Broadcasts ⟨2, ![a, b]⟩) (p : Fin a) (q : Fin b) :
    addf (FloatOps.matmul (Cert.PlainMatmul.dims wf) prec L R (constant ⟨2, ![a, b]⟩ .f32 0x00000000#32))
        (broadcastTo ⟨2, ![a, b]⟩ bias hb) (ix2 p q)
      = dot (fun k => L (ix2 p k)) (fun k => R (ix2 k q)) + bias (ix2 (0 : Fin 1) q) := by
  show FloatOps.matmul _ prec L R _ (ix2 p q) + broadcastTo _ bias hb (ix2 p q) = _
  rw [Cert.PlainMatmul.zero_acc_apply, broadcastTo_1b_ab_apply]
  rfl

/-- v · logistic(v), entry by entry, is swish of the entry. -/
theorem swish_vec {s : Shape} {φ : FTy} (v : FVec Ideal s φ) (i : s.Idx) : mulf v (logistic v) i = swish (v i) := rfl

/-- The first stored tile at (p, q): `e1` of rows p of the two embedding tiles and of the radial tile, the columns of
    W0ᵀ with the first bias row, column q of Wlᵀ and entry q of the second bias row. -/
theorem pay2_apply (x2 : Vec Ideal S4000x6 .f32) (x3 : Vec Ideal S6x128 .f32) (x4 : Vec Ideal S1x128 .f32)
    (x0 x1 : Vec Ideal S4000x128 .f32) (x5 : Vec Ideal S384x128 .f32) (x6 : Vec Ideal S1x128 .f32)
    (p : Fin 4000) (q : Fin 128) :
    k0_pay2 x2 x3 x4 x0 x1 x5 x6 (ix2 p q)
      = e1 (fun d => x0 (ix2 p d)) (fun d => x1 (ix2 p d)) (fun k => x2 (ix2 p k)) (fun d k => x3 (ix2 k d))
          (fun d => x4 (ix2 (0 : Fin 1) d)) (fun k => x5 (ix2 k q)) (x6 (ix2 (0 : Fin 1) q)) := by
  unfold k0_pay2 e1
  refine (swish_vec _ _).trans (congrArg swish ?_)
  refine (dense_apply dot_S4000x384_S384x128_S4000x128_1_0_0_1_n_n_wf none _ _ _ _ p q).trans ?_
  refine congrArg₂ (· + ·) ?_ ?_
  · unfold dot
    refine Finset.sum_congr rfl fun k _ => ?_
    refine congrArg₂ (· * ·) ?_ ?_
    · show concatenate S4000x384 1 [⟨_, _⟩, ⟨_, _⟩, ⟨_, _⟩] concatenates_S4000x128_S4000x128_S4000x128_S4000x384_d1 (ix2 p k) = _
      refine (Cert.RowJoin3.concatenate_apply (rfl : 384 = 128 + 128 + 128) _ _ _ concatenates_S4000x128_S4000x128_S4000x128_S4000x384_d1 p k).trans ?_
      unfold catRow
      refine join3_congr 384 rfl (fun d => ?_) (fun d => ?_) (fun d => ?_) k
      · rw [shapeCast_self]
      · rw [shapeCast_self]
      · refine (swish_vec _ _).trans (congrArg swish ?_)
        refine (dense_apply dot_S4000x6_S6x128_S4000x128_1_0_0_1_n_n_wf none _ _ _ _ p d).trans ?_
        refine congrArg₂ (· + ·) ?_ ?_
        · unfold dot k0_pay1
          refine Finset.sum_congr rfl fun j _ => ?_
          show x2 (ix2 p j) * shapeCast S6x128 x3 _ (ix2 j d) = _
          rw [shapeCast_self]
        · rw [shapeCast_self]
    · show shapeCast S384x128 x5 _ (ix2 k q) = _
      rw [shapeCast_self]
  · rw [shapeCast_self]

/-- The second stored tile at (p, q): `e2`, the radial row p against column q of W1ᵀ times the first tile's entry. -/
theorem pay3_apply (x2 : Vec Ideal S4000x6 .f32) (x3 : Vec Ideal S6x128 .f32) (x4 : Vec Ideal S1x128 .f32)
    (x0 x1 : Vec Ideal S4000x128 .f32) (x5 : Vec Ideal S384x128 .f32) (x6 : Vec Ideal S1x128 .f32)
    (x7 : Vec Ideal S6x128 .f32) (p : Fin 4000) (q : Fin 128) :
    k0_pay3 x2 x3 x4 x0 x1 x5 x6 x7 (ix2 p q)
      = e2 (fun d => x0 (ix2 p d)) (fun d => x1 (ix2 p d)) (fun k => x2 (ix2 p k)) (fun d k => x3 (ix2 k d))
          (fun d => x4 (ix2 (0 : Fin 1) d)) (fun k => x5 (ix2 k q)) (x6 (ix2 (0 : Fin 1) q)) (fun k => x7 (ix2 k q)) := by
  unfold k0_pay3 e2
  show FloatOps.matmul _ none _ _ _ (ix2 p q) * k0_pay2 x2 x3 x4 x0 x1 x5 x6 (ix2 p q) = _
  refine congrArg₂ (· * ·) ?_ (pay2_apply x2 x3 x4 x0 x1 x5 x6 p q)
  refine (Cert.PlainMatmul.zero_acc_apply dot_S4000x6_S6x128_S4000x128_1_0_0_1_n_n_wf none _ _ p q).trans ?_
  unfold dot k0_pay1
  refine Finset.sum_congr rfl fun j _ => ?_
  show x2 (ix2 p j) * shapeCast S6x128 x7 _ (ix2 j q) = _
  rw [shapeCast_self]

end Cert.KernelIdeal.TileValue

end
-- ==== Proof.RegionValue.lean ====
/-
  From tiles to the two result arrays.

  The grid has 125 points; point t holds rows 4000·t … 4000·t + 3999 of the three edge arrays (the two gathered embedding
  arrays and the radial array) and the whole of each weight array, and writes back rows 4000·t … 4000·t + 3999 of the two
  results.  Before the region the host has gathered the embedding rows (node table first, then the two endpoint tables),
  transposed the three weight matrices and laid the two biases out as rows [1, 128].  Reading a transposed matrix at
  (k, d) gives the matrix at (d, k), and reading a bias row at (0, d) gives the bias at d, so what point t writes back is
  block t of the whole-array functions `E1` / `E2` of the gathered rows and the weights as given.  The blocks tile the
  results — row r lies in the block of point r / 4000 — so after the run the two result arrays are `E1` and `E2`.
-/
import proofs.«101394_j50448685859053_1_alg».proof.Proof.Gen.KernelIdeal.Value
import proofs.«101394_j50448685859053_1_alg».proof.Proof.TileValue
import Idealize.ShloMosaic.Lib.StableHlo.Run
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem Idealize.ShloMosaic.StableHlo Cert.EdgeSpec
open Idealize.ShloMosaic.Pipeline (Dat)

variable (m : (ℓ : Loc nD τ sig) → Buf (Elt Ideal) ℓ) (ρ : Dev nD → PrngReg)

/-! ## What the host prepares -/

/-- The embedding rows of the edges' endpoints: the node table gathered from the embedding weights by the node types
    (a negative type wrapped by 95), then gathered again by the edges' endpoint indices (a negative index wrapped by
    50000).  The same term serves both endpoints. -/
def gathered (x0 : (⟨S50000, .i32⟩ : BufTy).Contents (Elt Ideal)) (xe : (⟨S500000, .i32⟩ : BufTy).Contents (Elt Ideal))
    (x4 : (⟨S95x128, .f32⟩ : BufTy).Contents (Elt Ideal)) : (⟨S500000x128, .f32⟩ : BufTy).Contents (Elt Ideal) :=
  Host.gather gather_S50000x128_S500000x1_S500000x128_1_0_n_n_0_1_1128
    (Host.gather gather_S95x128_S50000x1_S50000x128_1_0_n_n_0_1_1128 x4
      (broadcastInDim S50000x1 ![0] bcast_S50000_S50000x1_0
        (select (cmpi .slt x0 (broadcastInDim S50000 ![] bcast_S_S50000 (constantI S_ 32 0#32)))
          (addi x0 (broadcastInDim S50000 ![] bcast_S_S50000 (constantI S_ 32 95#32))) x0)))
    (broadcastInDim S500000x1 ![0] bcast_S500000_S500000x1_0
      (select (cmpi .slt xe (broadcastInDim S500000 ![] bcast_S_S500000 (constantI S_ 32 0#32)))
        (addi xe (broadcastInDim S500000 ![] bcast_S_S500000 (constantI S_ 32 50000#32))) xe))

/-- The first endpoint's rows as the region finds them. -/
theorem V13_eq (c : Dev nD) : (V m c main_v13 : (⟨S500000x128, .f32⟩ : BufTy).Contents (Elt Ideal))
    = gathered (m ((c : Thread nD τ).loc main_arg0)) (m ((c : Thread nD τ).loc main_arg2)) (m ((c : Thread nD τ).loc main_arg4)) := by
  unfold gathered
  dsimp only [V, hostOps0]
  after_results_simp <;> rfl

/-- The second endpoint's rows as the region finds them. -/
theorem V20_eq (c : Dev nD) : (V m c main_v20 : (⟨S500000x128, .f32⟩ : BufTy).Contents (Elt Ideal))
    = gathered (m ((c : Thread nD τ).loc main_arg0)) (m ((c : Thread nD τ).loc main_arg3)) (m ((c : Thread nD τ).loc main_arg4)) := by
  unfold gathered
  dsimp only [V, hostOps0]
  after_results_simp <;> rfl

/-- W0 transposed. -/
theorem V21_eq (c : Dev nD) : (V m c main_v21 : (⟨S6x128, .f32⟩ : BufTy).Contents (Elt Ideal))
    = transpose S6x128 [1, 0] (m ((c : Thread nD τ).loc main_arg5)) transposes_S128x6_S6x128_1_0 := by
  dsimp only [V, hostOps0]
  after_results_simp <;> rfl

/-- Wl transposed. -/
theorem V22_eq (c : Dev nD) : (V m c main_v22 : (⟨S384x128, .f32⟩ : BufTy).Contents (Elt Ideal))
    = transpose S384x128 [1, 0] (m ((c : Thread nD τ).loc main_arg7)) transposes_S128x384_S384x128_1_0 := by
  dsimp only [V, hostOps0]
  after_results_simp <;> rfl

/-- W1 transposed. -/
theorem V23_eq (c : Dev nD) : (V m c main_v23 : (⟨S6x128, .f32⟩ : BufTy).Contents (Elt Ideal))
    = transpose S6x128 [1, 0] (m ((c : Thread nD τ).loc main_arg9)) transposes_S128x6_S6x128_1_0 := by
  dsimp only [V, hostOps0]
  after_results_simp <;> rfl

/-- The first bias as a row. -/
theorem V24_eq (c : Dev nD) : (V m c main_v24 : (⟨S1x128, .f32⟩ : BufTy).Contents (Elt Ideal))
    = shapeCast S1x128 (m ((c : Thread nD τ).loc main_arg6)) shapeCasts_S128_S1x128 := by
  dsimp only [V, hostOps0]
  after_results_simp <;> rfl

/-- The second bias as a row. -/
theorem V25_eq (c : Dev nD) : (V m c main_v25 : (⟨S1x128, .f32⟩ : BufTy).Contents (Elt Ideal))
    = shapeCast S1x128 (m ((c : Thread nD τ).loc main_arg8)) shapeCasts_S128_S1x128 := by
  dsimp only [V, hostOps0]
  after_results_simp <;> rfl

/-! ## The grid's index maps -/

theorem hz : (![0, 0] : Fin 2 → Nat) = fun _ => 0 := funext fun a => by fin_cases a <;> rfl

/-- The printed index maps, decided over the 125 points: the three edge windows and the two result windows are at row
    block t, everything else at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row p of point t's tile is row 4000·t + p of the edge arrays. -/
def rowAt (t : Fin cfg0.N) (p : Fin 4000) : Fin 500000 :=
  ⟨t.val * 4000 + p.val, by have h := t.isLt; have e : cfg0.N = 125 := N_0; have := p.isLt; omega⟩

/-! ## The windows' blocks, read at an entry -/

theorem blk0_apply (c : Dev nD) (t : Fin cfg0.N) (p : Fin 4000) (d : Fin 128) :
    iblk m c 0 t (ix2 p d) = gathered (m ((c : Thread nD τ).loc main_arg0)) (m ((c : Thread nD τ).loc main_arg2)) (m ((c : Thread nD τ).loc main_arg4)) (ix2 (rowAt t p) d) := by
  have F := (idx_facts t).1
  rw [← V13_eq m c]
  show V m c main_v13 (((cfg0.win 0).blk t).view.emb (ix2 p d)) = _
  refine congrArg _ (funext fun a => Fin.ext ?_)
  match a with
  | ⟨0, _⟩ => show win0_0.index t (0 : Fin 2) * 4000 + 1 * p.val = t.val * 4000 + p.val; have := F.1; omega
  | ⟨1, _⟩ => show win0_0.index t (1 : Fin 2) * 128 + 1 * d.val = d.val; have := F.2; omega

theorem blk1_apply (c : Dev nD) (t : Fin cfg0.N) (p : Fin 4000) (d : Fin 128) :
    iblk m c 1 t (ix2 p d) = gathered (m ((c : Thread nD τ).loc main_arg0)) (m ((c : Thread nD τ).loc main_arg3)) (m ((c : Thread nD τ).loc main_arg4)) (ix2 (rowAt t p) d) := by
  have F := (idx_facts t).2.1
  rw [← V20_eq m c]
  show V m c main_v20 (((cfg0.win 1).blk t).view.emb (ix2 p d)) = _
  refine congrArg _ (funext fun a => Fin.ext ?_)
  match a with
  | ⟨0, _⟩ => show win0_1.index t (0 : Fin 2) * 4000 + 1 * p.val = t.val * 4000 + p.val; have := F.1; omega
  | ⟨1, _⟩ => show win0_1.index t (1 : Fin 2) * 128 + 1 * d.val = d.val; have := F.2; omega

theorem blk2_apply (c : Dev nD) (t : Fin cfg0.N) (p : Fin 4000) (k : Fin 6) :
    iblk m c 2 t (ix2 p k) = (m ((c : Thread nD τ).loc main_arg1) : S500000x6.Idx → EReal) (ix2 (rowAt t p) k) := by
  have F := (idx_facts t).2.2.1
  rw [← V_main_arg1 m c]
  show V m c main_arg1 (((cfg0.win 2).blk t).view.emb (ix2 p k)) = _
  refine congrArg _ (funext fun a => Fin.ext ?_)
  match a with
  | ⟨0, _⟩ => show win0_2.index t (0 : Fin 2) * 4000 + 1 * p.val = t.val * 4000 + p.val; have := F.1; omega
  | ⟨1, _⟩ => show win0_2.index t (1 : Fin 2) * 6 + 1 * k.val = k.val; have := F.2; omega

theorem blk3_apply (c : Dev nD) (t : Fin cfg0.N) (k : Fin 6) (d : Fin 128) :
    iblk m c 3 t (ix2 k d) = (m ((c : Thread nD τ).loc main_arg5) : S128x6.Idx → EReal) (ix2 d k) := by
  have F := (idx_facts t).2.2.2.1
  rw [← transpose_ix2_apply (m ((c : Thread nD τ).loc main_arg5) : S128x6.Idx → EReal) transposes_S128x6_S6x128_1_0 k d, ← V21_eq m c]
  show V m c main_v21 (((cfg0.win 3).blk t).view.emb (ix2 k d)) = _
  refine congrArg _ (funext fun a => Fin.ext ?_)
  match a with
  | ⟨0, _⟩ => show win0_3.index t (0 : Fin 2) * 6 + 1 * k.val = k.val; have := F.1; omega
  | ⟨1, _⟩ => show win0_3.index t (1 : Fin 2) * 128 + 1 * d.val = d.val; have := F.2; omega

theorem blk4_apply (c : Dev nD) (t : Fin cfg0.N) (d : Fin 128) :
    iblk m c 4 t (ix2 (0 : Fin 1) d) = (m ((c : Thread nD τ).loc main_arg6) : S128.Idx → EReal) (ix1 d) := by
  have F := (idx_facts t).2.2.2.2.1
  rw [← shapeCast_a_1a_apply (m ((c : Thread nD τ).loc main_arg6) : S128.Idx → EReal) shapeCasts_S128_S1x128 0 d, ← V24_eq m c]
  show V m c main_v24 (((cfg0.win 4).blk t).view.emb (ix2 (0 : Fin 1) d)) = _
  refine congrArg _ (funext fun a => Fin.ext ?_)
  match a with
  | ⟨0, _⟩ => show win0_4.index t (0 : Fin 2) * 1 + 1 * 0 = 0; have := F.1; omega
  | ⟨1, _⟩ => show win0_4.index t (1 : Fin 2) * 128 + 1 * d.val = d.val; have := F.2; omega

theorem blk5_apply (c : Dev nD) (t : Fin cfg0.N) (k : Fin 384) (q : Fin 128) :
    iblk m c 5 t (ix2 k q) = (m ((c : Thread nD τ).loc main_arg7) : S128x384.Idx → EReal) (ix2 q k) := by
  have F := (idx_facts t).2.2.2.2.2.1
  rw [← transpose_ix2_apply (m ((c : Thread nD τ).loc main_arg7) : S128x384.Idx → EReal) transposes_S128x384_S384x128_1_0 k q, ← V22_eq m c]
  show V m c main_v22 (((cfg0.win 5).blk t).view.emb (ix2 k q)) = _
  refine congrArg _ (funext fun a => Fin.ext ?_)
  match a with
  | ⟨0, _⟩ => show win0_5.index t (0 : Fin 2) * 384 + 1 * k.val = k.val; have := F.1; omega
  | ⟨1, _⟩ => show win0_5.index t (1 : Fin 2) * 128 + 1 * q.val = q.val; have := F.2; omega

theorem blk6_apply (c : Dev nD) (t : Fin cfg0.N) (q : Fin 128) :
    iblk m c 6 t (ix2 (0 : Fin 1) q) = (m ((c : Thread nD τ).loc main_arg8) : S128.Idx → EReal) (ix1 q) := by
  have F := (idx_facts t).2.2.2.2.2.2.1
  rw [← shapeCast_a_1a_apply (m ((c : Thread nD τ).loc main_arg8) : S128.Idx → EReal) shapeCasts_S128_S1x128 0 q, ← V25_eq m c]
  show V m c main_v25 (((cfg0.win 6).blk t).view.emb (ix2 (0 : Fin 1) q)) = _
  refine congrArg _ (funext fun a => Fin.ext ?_)
  match a with
  | ⟨0, _⟩ => show win0_6.index t (0 : Fin 2) * 1 + 1 * 0 = 0; have := F.1; omega
  | ⟨1, _⟩ => show win0_6.index t (1 : Fin 2) * 128 + 1 * q.val = q.val; have := F.2; omega

theorem blk7_apply (c : Dev nD) (t : Fin cfg0.N) (k : Fin 6) (q : Fin 128) :
    iblk m c 7 t (ix2 k q) = (m ((c : Thread nD τ).loc main_arg9) : S128x6.Idx → EReal) (ix2 q k) := by
  have F := (idx_facts t).2.2.2.2.2.2.2.1
  rw [← transpose_ix2_apply (m ((c : Thread nD τ).loc main_arg9) : S128x6.Idx → EReal) transposes_S128x6_S6x128_1_0 k q, ← V23_eq m c]
  show V m c main_v23 (((cfg0.win 7).blk t).view.emb (ix2 k q)) = _
  refine congrArg _ (funext fun a => Fin.ext ?_)
  match a with
  | ⟨0, _⟩ => show win0_7.index t (0 : Fin 2) * 6 + 1 * k.val = k.val; have := F.1; omega
  | ⟨1, _⟩ => show win0_7.index t (1 : Fin 2) * 128 + 1 * q.val = q.val; have := F.2; omega

/-! ## A tile of the results is a block of the whole-array functions -/

/-- Over any arrays: if a tile's inputs are rows `b·4000 + p` of the edge arrays, the transposes of the weights and the
    biases as rows, its first stored tile at (p, q) is `E1` at (b·4000 + p, q). -/
theorem tile_E1 (HI HJ : S500000x128.Idx → EReal) (RBF : S500000x6.Idx → EReal) (W0 : S128x6.Idx → EReal)
    (B0 : S128.Idx → EReal) (WL : S128x384.Idx → EReal) (BL : S128.Idx → EReal)
    (x2 : Vec Ideal S4000x6 .f32) (x3 : Vec Ideal S6x128 .f32) (x4 : Vec Ideal S1x128 .f32)
    (x0 x1 : Vec Ideal S4000x128 .f32) (x5 : Vec Ideal S384x128 .f32) (x6 : Vec Ideal S1x128 .f32)
    (r : Fin 4000 → Fin 500000)
    (h0 : ∀ (p : Fin 4000) (d : Fin 128), x0 (ix2 p d) = HI (ix2 (r p) d))
    (h1 : ∀ (p : Fin 4000) (d : Fin 128), x1 (ix2 p d) = HJ (ix2 (r p) d))
    (h2 : ∀ (p : Fin 4000) (k : Fin 6), x2 (ix2 p k) = RBF (ix2 (r p) k))
    (h3 : ∀ (k : Fin 6) (d : Fin 128), x3 (ix2 k d) = W0 (ix2 d k))
    (h4 : ∀ d : Fin 128, x4 (ix2 (0 : Fin 1) d) = B0 (ix1 d))
    (h5 : ∀ (k : Fin 384) (q : Fin 128), x5 (ix2 k q) = WL (ix2 q k))
    (h6 : ∀ q : Fin 128, x6 (ix2 (0 : Fin 1) q) = BL (ix1 q))
    (p : Fin 4000) (q : Fin 128) :
    k0_pay2 x2 x3 x4 x0 x1 x5 x6 (ix2 p q) = E1 HI HJ RBF W0 B0 WL BL (ix2 (r p) q) := by
  rw [TileValue.pay2_apply]
  exact e1_congr (h0 p) (h1 p) (h2 p) (fun d k => h3 k d) h4 (fun k => h5 k q) (h6 q)

/-- The same for the second stored tile and `E2`. -/
theorem tile_E2 (HI HJ : S500000x128.Idx → EReal) (RBF : S500000x6.Idx → EReal) (W0 : S128x6.Idx → EReal)
    (B0 : S128.Idx → EReal) (WL : S128x384.Idx → EReal) (BL : S128.Idx → EReal) (W1 : S128x6.Idx → EReal)
    (x2 : Vec Ideal S4000x6 .f32) (x3 : Vec Ideal S6x128 .f32) (x4 : Vec Ideal S1x128 .f32)
    (x0 x1 : Vec Ideal S4000x128 .f32) (x5 : Vec Ideal S384x128 .f32) (x6 : Vec Ideal S1x128 .f32) (x7 : Vec Ideal S6x128 .f32)
    (r : Fin 4000 → Fin 500000)
    (h0 : ∀ (p : Fin 4000) (d : Fin 128), x0 (ix2 p d) = HI (ix2 (r p) d))
    (h1 : ∀ (p : Fin 4000) (d : Fin 128), x1 (ix2 p d) = HJ (ix2 (r p) d))
    (h2 : ∀ (p : Fin 4000) (k : Fin 6), x2 (ix2 p k) = RBF (ix2 (r p) k))
    (h3 : ∀ (k : Fin 6) (d : Fin 128), x3 (ix2 k d) = W0 (ix2 d k))
    (h4 : ∀ d : Fin 128, x4 (ix2 (0 : Fin 1) d) = B0 (ix1 d))
    (h5 : ∀ (k : Fin 384) (q : Fin 128), x5 (ix2 k q) = WL (ix2 q k))
    (h6 : ∀ q : Fin 128, x6 (ix2 (0 : Fin 1) q) = BL (ix1 q))
    (h7 : ∀ (k : Fin 6) (q : Fin 128), x7 (ix2 k q) = W1 (ix2 q k))
    (p : Fin 4000) (q : Fin 128) :
    k0_pay3 x2 x3 x4 x0 x1 x5 x6 x7 (ix2 p q) = E2 HI HJ RBF W0 B0 WL BL W1 (ix2 (r p) q) := by
  rw [TileValue.pay3_apply]
  exact e2_congr (h0 p) (h1 p) (h2 p) (fun d k => h3 k d) h4 (fun k => h5 k q) (h6 q) (fun k => h7 k q)

/-! ## The result arrays after the run -/

/-- The first result as a function of the arguments on core c. -/
def out1 (c : Dev nD) : S500000x128.Idx → EReal :=
  E1 (gathered (m ((c : Thread nD τ).loc main_arg0)) (m ((c : Thread nD τ).loc main_arg2)) (m ((c : Thread nD τ).loc main_arg4)))
    (gathered (m ((c : Thread nD τ).loc main_arg0)) (m ((c : Thread nD τ).loc main_arg3)) (m ((c : Thread nD τ).loc main_arg4)))
    (m ((c : Thread nD τ).loc main_arg1)) (m ((c : Thread nD τ).loc main_arg5)) (m ((c : Thread nD τ).loc main_arg6))
    (m ((c : Thread nD τ).loc main_arg7)) (m ((c : Thread nD τ).loc main_arg8))

/-- The second result as a function of the arguments on core c. -/
def out2 (c : Dev nD) : S500000x128.Idx → EReal :=
  E2 (gathered (m ((c : Thread nD τ).loc main_arg0)) (m ((c : Thread nD τ).loc main_arg2)) (m ((c : Thread nD τ).loc main_arg4)))
    (gathered (m ((c : Thread nD τ).loc main_arg0)) (m ((c : Thread nD τ).loc main_arg3)) (m ((c : Thread nD τ).loc main_arg4)))
    (m ((c : Thread nD τ).loc main_arg1)) (m ((c : Thread nD τ).loc main_arg5)) (m ((c : Thread nD τ).loc main_arg6))
    (m ((c : Thread nD τ).loc main_arg7)) (m ((c : Thread nD τ).loc main_arg8)) (m ((c : Thread nD τ).loc main_arg9))

/-- A block's entry (p, q) sits at row 4000·t + p, column q of the result array. -/
theorem emb8 (t : Fin cfg0.N) (p : Fin 4000) (q : Fin 128) :
    (((cfg0.win 8).blk t).view.emb (ix2 p q) : S500000x128.Idx) = ix2 (rowAt t p) q := by
  have F := (idx_facts t).2.2.2.2.2.2.2.2.1
  refine funext fun a => Fin.ext ?_
  match a with
  | ⟨0, _⟩ => show win0_8.index t (0 : Fin 2) * 4000 + 1 * p.val = t.val * 4000 + p.val; have := F.1; omega
  | ⟨1, _⟩ => show win0_8.index t (1 : Fin 2) * 128 + 1 * q.val = q.val; have := F.2; omega

theorem emb9 (t : Fin cfg0.N) (p : Fin 4000) (q : Fin 128) :
    (((cfg0.win 9).blk t).view.emb (ix2 p q) : S500000x128.Idx) = ix2 (rowAt t p) q := by
  have F := (idx_facts t).2.2.2.2.2.2.2.2.2
  refine funext fun a => Fin.ext ?_
  match a with
  | ⟨0, _⟩ => show win0_9.index t (0 : Fin 2) * 4000 + 1 * p.val = t.val * 4000 + p.val; have := F.1; omega
  | ⟨1, _⟩ => show win0_9.index t (1 : Fin 2) * 128 + 1 * q.val = q.val; have := F.2; omega

/-- What point t writes back to the first result is block t of `out1`. -/
theorem flushed8_eq (c : Dev nD) (t : Fin cfg0.N) :
    (dats m 0 c).flushed 8 t = ((cfg0.win 8).blk t).view.read (Elt Ideal) (out1 m c) := by
  rw [Value.flushed8]
  unfold out0_8
  rw [View.canon_unit_zero hz]
  simp only [View.ld_unit_zero (S := S4000x6) hz, View.ld_unit_zero (S := S6x128) hz, View.ld_unit_zero (S := S1x128) hz,
    View.ld_unit_zero (S := S4000x128) hz, View.ld_unit_zero (S := S384x128) hz]
  funext j
  obtain ⟨p, q, rfl⟩ : ∃ (p : Fin 4000) (q : Fin 128), j = ix2 p q := ⟨j 0, j 1, eq_ix2 j⟩
  show k0_pay2 (iblk m c 2 t) (iblk m c 3 t) (iblk m c 4 t) (iblk m c 0 t) (iblk m c 1 t) (iblk m c 5 t) (iblk m c 6 t) (ix2 p q)
    = out1 m c (((cfg0.win 8).blk t).view.emb (ix2 p q))
  rw [emb8 t p q]
  exact tile_E1 _ _ _ _ _ _ _ (iblk m c 2 t) (iblk m c 3 t) (iblk m c 4 t) (iblk m c 0 t) (iblk m c 1 t) (iblk m c 5 t) (iblk m c 6 t)
    (rowAt t) (blk0_apply m c t) (blk1_apply m c t) (blk2_apply m c t) (blk3_apply m c t) (blk4_apply m c t)
    (blk5_apply m c t) (blk6_apply m c t) p q

/-- What point t writes back to the second result is block t of `out2`. -/
theorem flushed9_eq (c : Dev nD) (t : Fin cfg0.N) :
    (dats m 0 c).flushed 9 t = ((cfg0.win 9).blk t).view.read (Elt Ideal) (out2 m c) := by
  rw [Value.flushed9]
  unfold out0_9
  rw [View.canon_unit_zero hz]
  simp only [View.ld_unit_zero (S := S4000x6) hz, View.ld_unit_zero (S := S6x128) hz, View.ld_unit_zero (S := S1x128) hz,
    View.ld_unit_zero (S := S4000x128) hz, View.ld_unit_zero (S := S384x128) hz]
  funext j
  obtain ⟨p, q, rfl⟩ : ∃ (p : Fin 4000) (q : Fin 128), j = ix2 p q := ⟨j 0, j 1, eq_ix2 j⟩
  show k0_pay3 (iblk m c 2 t) (iblk m c 3 t) (iblk m c 4 t) (iblk m c 0 t) (iblk m c 1 t) (iblk m c 5 t) (iblk m c 6 t) (iblk m c 7 t) (ix2 p q)
    = out2 m c (((cfg0.win 9).blk t).view.emb (ix2 p q))
  rw [emb9 t p q]
  exact tile_E2 _ _ _ _ _ _ _ _ (iblk m c 2 t) (iblk m c 3 t) (iblk m c 4 t) (iblk m c 0 t) (iblk m c 1 t) (iblk m c 5 t) (iblk m c 6 t) (iblk m c 7 t)
    (rowAt t) (blk0_apply m c t) (blk1_apply m c t) (blk2_apply m c t) (blk3_apply m c t) (blk4_apply m c t)
    (blk5_apply m c t) (blk6_apply m c t) (blk7_apply m c t) p q

/-- An index of the first result is in point t's block iff each coordinate is in the block's range on its axis. -/
theorem mem_blk8 (t : Fin cfg0.N) (i : S500000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v26_0).slice (win0_8.rect t)).set ↔ _
  rw [View.set_slice_whole, Rect.mem_set_unit]
  exact Iff.rfl

theorem mem_blk9 (t : Fin cfg0.N) (i : S500000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v26_1).slice (win0_9.rect t)).set ↔ _
  rw [View.set_slice_whole, Rect.mem_set_unit]
  exact Iff.rfl

/-- The point whose block holds row r: r / 4000. -/
def pointOf (i : S500000x128.Idx) : Fin cfg0.N :=
  ⟨(i 0).val / 4000, by have h : (i 0).val < 500000 := (i 0).isLt; have e : cfg0.N = 125 := N_0; omega⟩

/-- Every index of the first result is in some point's block. -/
theorem cover8 (i : S500000x128.Idx) : ∃ t : Fin cfg0.N, (cfg0.win 8).flush t = true ∧ i ∈ ((cfg0.win 8).blk t).view.set := by
  refine ⟨pointOf i, flush0_8 _, ?_⟩
  have F := (idx_facts (pointOf i)).2.2.2.2.2.2.2.2.1
  have hv : (pointOf i).val = (i 0).val / 4000 := rfl
  have h1 : (i 1).val < 128 := (i 1).isLt
  rw [mem_blk8]
  intro a
  match a with
  | ⟨0, _⟩ => show win0_8.index (pointOf i) (0 : Fin 2) * 4000 ≤ (i 0).val ∧ (i 0).val < win0_8.index (pointOf i) (0 : Fin 2) * 4000 + 4000; have := F.1; omega
  | ⟨1, _⟩ => show win0_8.index (pointOf i) (1 : Fin 2) * 128 ≤ (i 1).val ∧ (i 1).val < win0_8.index (pointOf i) (1 : Fin 2) * 128 + 128; have := F.2; omega

/-- Every index of the second result is in some point's block. -/
theorem cover9 (i : S500000x128.Idx) : ∃ t : Fin cfg0.N, (cfg0.win 9).flush t = true ∧ i ∈ ((cfg0.win 9).blk t).view.set := by
  refine ⟨pointOf i, flush0_9 _, ?_⟩
  have F := (idx_facts (pointOf i)).2.2.2.2.2.2.2.2.2
  have hv : (pointOf i).val = (i 0).val / 4000 := rfl
  have h1 : (i 1).val < 128 := (i 1).isLt
  rw [mem_blk9]
  intro a
  match a with
  | ⟨0, _⟩ => show win0_9.index (pointOf i) (0 : Fin 2) * 4000 ≤ (i 0).val ∧ (i 0).val < win0_9.index (pointOf i) (0 : Fin 2) * 4000 + 4000; have := F.1; omega
  | ⟨1, _⟩ => show win0_9.index (pointOf i) (1 : Fin 2) * 128 ≤ (i 1).val ∧ (i 1).val < win0_9.index (pointOf i) (1 : Fin 2) * 128 + 128; have := F.2; omega

/-- After the run the first result array is `out1`. -/
theorem final8 (c : Dev nD) : (dats m 0 c).arrAt 8 cfg0.N = out1 m c :=
  (dats m 0 c).arrAt_eq_of_cover 8 (out1 m c) (fun t _ => flushed8_eq m c t) cover8

/-- After the run the second result array is `out2`. -/
theorem final9 (c : Dev nD) : (dats m 0 c).arrAt 9 cfg0.N = out2 m c :=
  (dats m 0 c).arrAt_eq_of_cover 9 (out2 m c) (fun t _ => flushed9_eq m c t) cover9

/-- The kernel's run with both results named as functions of the arguments, the arguments unchanged. -/
theorem run : θ_run defs (onTc (τ := τ) (main (F := Ideal))) ⟨m, fun _ => 0, ρ⟩ fun r => ∀ c : Dev nD,
      r.2.mem ((c : Thread nD τ).loc main_v26_0) = out1 m c
      ∧ r.2.mem ((c : Thread nD τ).loc main_v26_1) = out2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final8 m c), (h c).2.1.trans (final9 m c), (h c).2.2⟩)
    (Value.run_blocks m ρ)

end Cert.KernelIdeal.RegionValue

end
-- ==== Proof.RefValue.lean ====
/-
  The reference, entry by entry.

  The reference applies the same three dense layers to whole arrays: each contracts a row of the edge array with a ROW of
  the weight matrix as given (no transpose), adds the bias repeated down the rows, and spells the logistic function out as
  1 / (1 + exp(-v)).  Read at an entry (e, h), its first result is `E1` and its second `E2` of the gathered embedding rows,
  the radial rows and the weights — with the gathers left as the reference writes them.
-/
import proofs.«101394_j50448685859053_1_alg».proof.Proof.Gen.ReferenceIdeal.Read
import proofs.«101394_j50448685859053_1_alg».proof.Proof.EdgeSpec

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeSpec Cert.RowJoin3

/-! ## The composed index functions are the row and column coordinates -/

theorem lidx7 (i : S500000x128.Idx) (k : Fin 6) : lidx_main_v7 i k = ix2 (row i) k :=
  funext fun a => Fin.ext (by match a with | ⟨0, _⟩ => rfl | ⟨1, _⟩ => rfl)
theorem ridx7 (i : S500000x128.Idx) (k : Fin 6) : ridx_main_v7 i k = ix2 (col i) k :=
  funext fun a => Fin.ext (by match a with | ⟨0, _⟩ => rfl | ⟨1, _⟩ => rfl)
theorem bidx9 (i : S500000x128.Idx) : idx_main_v8 (idx_main_v9 i) = ix1 (col i) :=
  funext fun a => Fin.ext (by match a with | ⟨0, _⟩ => rfl)
theorem lidx33 (i : S500000x128.Idx) (k : Fin 384) : lidx_main_v33 i k = ix2 (row i) k :=
  funext fun a => Fin.ext (by match a with | ⟨0, _⟩ => rfl | ⟨1, _⟩ => rfl)
theorem ridx33 (i : S500000x128.Idx) (k : Fin 384) : ridx_main_v33 i k = ix2 (col i) k :=
  funext fun a => Fin.ext (by match a with | ⟨0, _⟩ => rfl | ⟨1, _⟩ => rfl)
theorem bidx35 (i : S500000x128.Idx) : idx_main_v34 (idx_main_v35 i) = ix1 (col i) :=
  funext fun a => Fin.ext (by match a with | ⟨0, _⟩ => rfl)
theorem lidx44 (i : S500000x128.Idx) (k : Fin 6) : lidx_main_v44 i k = ix2 (row i) k :=
  funext fun a => Fin.ext (by match a with | ⟨0, _⟩ => rfl | ⟨1, _⟩ => rfl)
theorem ridx44 (i : S500000x128.Idx) (k : Fin 6) : ridx_main_v44 i k = ix2 (col i) k :=
  funext fun a => Fin.ext (by match a with | ⟨0, _⟩ => rfl | ⟨1, _⟩ => rfl)

/-- The host's spelling v · (1.0 / (1.0 + exp(-v))) is swish(v). -/
theorem swish_host (v : EReal) :
    FloatOps.mulf (F := Ideal) (φ := .f32) v (FloatOps.hostDivf (FloatOps.ofBits .f32 0x3F800000#32)
      (FloatOps.addf (FloatOps.ofBits .f32 0x3F800000#32) (FloatOps.hostUnary .exp (FloatOps.hostNegf v)))) = swish v :=
  swish_quotient v

/-! ## The gate layer -/

theorem v10_apply (x1 : (⟨S500000x6, .f32⟩ : BufTy).Contents (Elt Ideal)) (x5 : (⟨S128x6, .f32⟩ : BufTy).Contents (Elt Ideal))
    (x6 : (⟨S128, .f32⟩ : BufTy).Contents (Elt Ideal)) (i : S500000x128.Idx) :
    val_main_v10 (F := Ideal) x1 x5 x6 i
      = dot (fun k => x1 (ix2 (row i) k)) (fun k => x5 (ix2 (col i) k)) + x6 (ix1 (col i)) := by
  rw [val_main_v10_apply, val_main_v7_apply, val_main_v9_apply, val_main_v8_apply]
  simp only [lidx7, ridx7, bidx9, Ideal.addf_def]
  rfl

theorem v17_apply (x1 : (⟨S500000x6, .f32⟩ : BufTy).Contents (Elt Ideal)) (x5 : (⟨S128x6, .f32⟩ : BufTy).Contents (Elt Ideal))
    (x6 : (⟨S128, .f32⟩ : BufTy).Contents (Elt Ideal)) (i : S500000x128.Idx) :
    val_main_v17 (F := Ideal) x1 x5 x6 i
      = gate (fun k => x1 (ix2 (row i) k)) (fun k => x5 (ix2 (col i) k)) (x6 (ix1 (col i))) := by
  rw [val_main_v17_apply, val_main_v16_apply, val_main_v15_apply, val_main_cst_1_apply, val_main_v14_apply,
    val_main_v13_apply, val_main_cst_apply, val_main_v12_apply, val_main_v11_apply, swish_host, v10_apply]
  rfl

/-! ## The joined rows and the second layer -/

theorem v32_apply (x0 : (⟨S50000, .i32⟩ : BufTy).Contents (Elt Ideal)) (x1 : (⟨S500000x6, .f32⟩ : BufTy).Contents (Elt Ideal))
    (x2 x3 : (⟨S500000, .i32⟩ : BufTy).Contents (Elt Ideal)) (x4 : (⟨S95x128, .f32⟩ : BufTy).Contents (Elt Ideal))
    (x5 : (⟨S128x6, .f32⟩ : BufTy).Contents (Elt Ideal)) (x6 : (⟨S128, .f32⟩ : BufTy).Contents (Elt Ideal))
    (r : Fin 500000) (k : Fin 384) :
    val_main_v32 (F := Ideal) x0 x1 x2 x3 x4 x5 x6 (ix2 r k)
      = catRow (fun d => val_main_v24 (F := Ideal) x0 x2 x4 (ix2 r d)) (fun d => val_main_v31 (F := Ideal) x0 x3 x4 (ix2 r d))
          (fun j => x1 (ix2 r j)) (fun d j => x5 (ix2 d j)) (fun d => x6 (ix1 d)) k := by
  unfold val_main_v32 catRow
  refine (Cert.RowJoin3.concatenate_apply (rfl : 384 = 128 + 128 + 128) _ _ _
    concatenates_S500000x128_S500000x128_S500000x128_S500000x384_d1 r k).trans ?_
  exact join3_congr 384 rfl (fun _ => rfl) (fun _ => rfl) (fun d => v17_apply x1 x5 x6 (ix2 r d)) k

theorem v36_apply (x0 : (⟨S50000, .i32⟩ : BufTy).Contents (Elt Ideal)) (x1 : (⟨S500000x6, .f32⟩ : BufTy).Contents (Elt Ideal))
    (x2 x3 : (⟨S500000, .i32⟩ : BufTy).Contents (Elt Ideal)) (x4 : (⟨S95x128, .f32⟩ : BufTy).Contents (Elt Ideal))
    (x5 : (⟨S128x6, .f32⟩ : BufTy).Contents (Elt Ideal)) (x6 : (⟨S128, .f32⟩ : BufTy).Contents (Elt Ideal))
    (x7 : (⟨S128x384, .f32⟩ : BufTy).Contents (Elt Ideal)) (x8 : (⟨S128, .f32⟩ : BufTy).Contents (Elt Ideal)) (i : S500000x128.Idx) :
    val_main_v36 (F := Ideal) x0 x1 x2 x3 x4 x5 x6 x7 x8 i
      = dot (catRow (fun d => val_main_v24 (F := Ideal) x0 x2 x4 (ix2 (row i) d)) (fun d => val_main_v31 (F := Ideal) x0 x3 x4 (ix2 (row i) d))
          (fun j => x1 (ix2 (row i) j)) (fun d j => x5 (ix2 d j)) (fun d => x6 (ix1 d))) (fun k => x7 (ix2 (col i) k))
        + x8 (ix1 (col i)) := by
  rw [val_main_v36_apply, val_main_v33_apply, val_main_v35_apply, val_main_v34_apply]
  simp only [lidx33, ridx33, bidx35, Ideal.addf_def, v32_apply]
  rfl

/-! ## The two results -/

/-- The reference's first result at an entry is `E1` of the gathered rows and the weights. -/
theorem v43_apply (x0 : (⟨S50000, .i32⟩ : BufTy).Contents (Elt Ideal)) (x1 : (⟨S500000x6, .f32⟩ : BufTy).Contents (Elt Ideal))
    (x2 x3 : (⟨S500000, .i32⟩ : BufTy).Contents (Elt Ideal)) (x4 : (⟨S95x128, .f32⟩ : BufTy).Contents (Elt Ideal))
    (x5 : (⟨S128x6, .f32⟩ : BufTy).Contents (Elt Ideal)) (x6 : (⟨S128, .f32⟩ : BufTy).Contents (Elt Ideal))
    (x7 : (⟨S128x384, .f32⟩ : BufTy).Contents (Elt Ideal)) (x8 : (⟨S128, .f32⟩ : BufTy).Contents (Elt Ideal)) (i : S500000x128.Idx) :
    val_main_v43 (F := Ideal) x0 x1 x2 x3 x4 x5 x6 x7 x8 i
      = E1 (val_main_v24 (F := Ideal) x0 x2 x4) (val_main_v31 (F := Ideal) x0 x3 x4) x1 x5 x6 x7 x8 i := by
  rw [val_main_v43_apply, val_main_v42_apply, val_main_v41_apply, val_main_cst_7_apply, val_main_v40_apply,
    val_main_v39_apply, val_main_cst_6_apply, val_main_v38_apply, val_main_v37_apply, swish_host, v36_apply]
  rfl

theorem v44_apply (x1 : (⟨S500000x6, .f32⟩ : BufTy).Contents (Elt Ideal)) (x9 : (⟨S128x6, .f32⟩ : BufTy).Contents (Elt Ideal))
    (i : S500000x128.Idx) :
    val_main_v44 (F := Ideal) x1 x9 i = dot (fun k => x1 (ix2 (row i) k)) (fun k => x9 (ix2 (col i) k)) := by
  rw [val_main_v44_apply]
  simp only [lidx44, ridx44]
  rfl

/-- The reference's second result at an entry is `E2`. -/
theorem v45_apply (x0 : (⟨S50000, .i32⟩ : BufTy).Contents (Elt Ideal)) (x1 : (⟨S500000x6, .f32⟩ : BufTy).Contents (Elt Ideal))
    (x2 x3 : (⟨S500000, .i32⟩ : BufTy).Contents (Elt Ideal)) (x4 : (⟨S95x128, .f32⟩ : BufTy).Contents (Elt Ideal))
    (x5 : (⟨S128x6, .f32⟩ : BufTy).Contents (Elt Ideal)) (x6 : (⟨S128, .f32⟩ : BufTy).Contents (Elt Ideal))
    (x7 : (⟨S128x384, .f32⟩ : BufTy).Contents (Elt Ideal)) (x8 : (⟨S128, .f32⟩ : BufTy).Contents (Elt Ideal))
    (x9 : (⟨S128x6, .f32⟩ : BufTy).Contents (Elt Ideal)) (i : S500000x128.Idx) :
    val_main_v45 (F := Ideal) x0 x1 x2 x3 x4 x5 x6 x7 x8 x9 i
      = E2 (val_main_v24 (F := Ideal) x0 x2 x4) (val_main_v31 (F := Ideal) x0 x3 x4) x1 x5 x6 x7 x8 x9 i := by
  rw [val_main_v45_apply, v44_apply, v43_apply]
  rfl

end Cert.ReferenceIdeal.RefValue

end
-- ==== Proof.Bridge.lean ====
/-
  The five claims.

  The two kernels' frames are their generated frames; the reference's frame is its generated run with the results
  dropped; the idealization rewrote nothing.  For the value claim both runs are read back as whole arrays: the kernel's two
  results are `E1` and `E2` of the gathered embedding rows and the weights (from the tiles, block by block), and the
  reference's two results are the same two functions (entry by entry).  The gathered rows are one term on both sides — the
  same three host operations applied to the same arguments — so once the memories agree on the arguments the results agree.
-/
import proofs.«101394_j50448685859053_1_alg».proof.Defs
import proofs.«101394_j50448685859053_1_alg».proof.Proof.Gen.Kernel.Frame
import proofs.«101394_j50448685859053_1_alg».proof.Proof.Gen.KernelIdeal.Frame
import proofs.«101394_j50448685859053_1_alg».proof.Proof.Gen.ReferenceIdeal.Run
import proofs.«101394_j50448685859053_1_alg».proof.Proof.Gen.ReferenceIdeal.Read
import proofs.«101394_j50448685859053_1_alg».proof.Proof.Gen.Pre_finite_inputs
import proofs.«101394_j50448685859053_1_alg».proof.Proof.RegionValue
import proofs.«101394_j50448685859053_1_alg».proof.Proof.RefValue

set_option maxRecDepth 16384

noncomputable section

namespace Cert.Proof.Bridge

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The reference's first result term, at arguments that agree with the kernel's, is the kernel's first result array. -/
theorem first_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v43 (F := Ideal) m' c = Cert.KernelIdeal.RegionValue.out1 m c := by
  rw [Cert.ReferenceIdeal.Read.val_main_v43_eq, h0, h1, h2, h3, h4, h5, h6, h7, h8]
  funext i
  rw [Cert.ReferenceIdeal.RefValue.v43_apply]
  rfl

/-- The same for the second result. -/
theorem second_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v45 (F := Ideal) m' c = Cert.KernelIdeal.RegionValue.out2 m c := by
  rw [Cert.ReferenceIdeal.Read.val_main_v45_eq, h0, h1, h2, h3, h4, h5, h6, h7, h8, h9]
  funext i
  rw [Cert.ReferenceIdeal.RefValue.v45_apply]
  rfl

/-- Both programs end with `E1` and `E2` of the gathered rows and the weights in their two results. -/
theorem algebraic : Cert.algebraic_KernelIdeal_ReferenceIdeal := by
  intro m ρ m' ρ' _ hagree
  refine ⟨fun c => Cert.KernelIdeal.RegionValue.out1 m c, fun c => Cert.KernelIdeal.RegionValue.out2 m c,
    Cert.KernelIdeal.RegionValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, -⟩ := hagree c
    exact first_eq m m' c h0 h1 h2 h3 h4 h5 h6 h7 h8
  · obtain ⟨h0, h1, h2, h3, h4, h5, h6, h7, h8, h9⟩ := hagree c
    exact second_eq m m' c h0 h1 h2 h3 h4 h5 h6 h7 h8 h9

end Cert.Proof.Bridge

end
-- ==== Proof.lean ====
/- The proof of `Cert.Claim`: an edge update of a message-passing network — two gathered node embeddings and a radial
   gate joined, a dense layer with swish, and a radial projection multiplied in — computed by one fused kernel over tiles of
   4000 edges and, in the reference, by whole-array host operations.  On the extended reals the two compute one function.

   Proof/EdgeSpec.lean states the update for one edge and one channel as a function of rows (`e1`, `e2`) and as whole arrays
   (`E1`, `E2`); Proof/TileValue.lean reads the kernel body's two stored tiles at an entry; Proof/RegionValue.lean reads
   the host's preparation (gathers, transposes, bias rows), identifies each tile with a block of `E1` / `E2` and covers the
   result arrays with the 125 blocks; Proof/RefValue.lean reads the reference's two results at an entry as `E1` / `E2`;
   Proof/Bridge.lean states the five claims.  Proof/LibRowJoin3.lean (three arrays joined along their columns, read at an
   entry) and Proof/LibPlainMatmul.lean (a plain matrix product read at an entry) are general lemmas. -/
import proofs.«101394_j50448685859053_1_alg».proof.Defs
import proofs.«101394_j50448685859053_1_alg».proof.Proof.Gen.Kernel
import proofs.«101394_j50448685859053_1_alg».proof.Proof.Gen.Kernel.Skeleton
import proofs.«101394_j50448685859053_1_alg».proof.Proof.Gen.Kernel.Launch
import proofs.«101394_j50448685859053_1_alg».proof.Proof.Gen.Kernel.Points
import proofs.«101394_j50448685859053_1_alg».proof.Proof.Gen.Kernel.Frame
import proofs.«101394_j50448685859053_1_alg».proof.Proof.Gen.KernelIdeal
import proofs.«101394_j50448685859053_1_alg».proof.Proof.Gen.KernelIdeal.Skeleton
import proofs.«101394_j50448685859053_1_alg».proof.Proof.Gen.KernelIdeal.Launch
import proofs.«101394_j50448685859053_1_alg».proof.Proof.Gen.KernelIdeal.Points
import proofs.«101394_j50448685859053_1_alg».proof.Proof.Gen.KernelIdeal.Frame
import proofs.«101394_j50448685859053_1_alg».proof.Proof.Gen.ReferenceIdeal
import proofs.«101394_j50448685859053_1_alg».proof.Proof.Gen.Pre_finite_inputs
import proofs.«101394_j50448685859053_1_alg».proof.Proof.Gen.KernelIdeal.Value
import proofs.«101394_j50448685859053_1_alg».proof.Proof.Gen.ReferenceIdeal.Run
import proofs.«101394_j50448685859053_1_alg».proof.Proof.Gen.ReferenceIdeal.Read
import proofs.«101394_j50448685859053_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Bridge.frame_k, Bridge.frame_ki, Bridge.frame_ri, Bridge.preserves, Bridge.algebraic⟩

end Cert.Proof

end
